-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S_ : Shape := ⟨0, ![]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .i1⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .bf16⟩
  | .hbm, ⟨17, _⟩ => ⟨S4x2048x4096, .bf16⟩
  | .hbm, ⟨18, _⟩ => ⟨S8192x4096, .bf16⟩
  | .hbm, ⟨19, _⟩ => ⟨S8192x4096, .f32⟩
  | .hbm, ⟨20, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v8) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .i1⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.TileCases.lean ====
/-
  What one grid point leaves in the output tile's staging buffer, for any float instance.

  The kernel body works on one [2048, 1024] output tile. At a point whose position on the contraction axis is zero it
  first stores the zero tile, reads it back, and stores `zero + x·wᵀ`; at every other point it reads the tile the point
  before left and stores `tile + x·wᵀ`. Both stores cover the whole tile, so what the buffer holds afterwards is that
  one stored value: the body's update `k0_pay2` applied to the two input blocks and to the tile it read
  (`k0_pay1`, the zero tile, in the first case).
-/
import proofs.«117658_j82325933130246_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

/-- The tile's stores and loads all start at the origin. -/
theorem origin : (![0, 0] : Fin 2 → Nat) = fun _ => 0 := funext fun a => by fin_cases a <;> rfl

/-- A point that continues a tile: the buffer held `acc`, and the one covering store leaves the update of `acc`
    by the two input blocks. -/
theorem out_continue (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (hc : ¬cond0_0 i) (x : Vec F S2048x1024 .bf16) (w : Vec F S1024x1024 .bf16) (acc : Vec F S2048x1024 .f32) :
    out0_B_2 c i a3 h3 a4 h4 a5 h5 hc x w acc = k0_pay2 x w acc := by
  unfold out0_B_2
  rw [View.read_writes_eq_canon _ _ _ (cover0_B_2 c i a3 h3 a4 h4 a5 h5 hc x w acc)]
  unfold kernelRun0_B
  dsimp only
  rw [View.canon_unit_zero origin]
  simp only [View.readAt_eq_ld, h3.read_unread, h4.read_unread, h5.read_unread, View.ld_unit_zero (S := S2048x1024) origin,
    View.ld_unit_zero (S := S1024x1024) origin]

/-- A point that starts a tile: the zero tile is stored and read back, and the second covering store leaves the
    update of the zero tile by the two input blocks. -/
theorem out_start (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (hc : cond0_0 i) (x : Vec F S2048x1024 .bf16) (w : Vec F S1024x1024 .bf16) :
    out0_A_2 c i a3 h3 a4 h4 a5 h5 hc x w = k0_pay2 x w (k0_pay1 (F := F)) := by
  unfold out0_A_2
  rw [View.read_writes_eq_canon _ _ _ (cover0_A_2 c i a3 h3 a4 h4 a5 h5 hc x w)]
  unfold kernelRun0_A
  dsimp only
  sl_unfold_words
  rw [View.canon_cons_unit_zero (S := S2048x1024) origin, View.readCov_unit_zero (S := S2048x1024) _ origin]
  simp only [View.readAt_eq_ld, h3.read_unread, h4.read_unread, View.ld_unit_zero (S := S2048x1024) origin,
    View.ld_unit_zero (S := S1024x1024) origin]

end Cert.KernelIdeal.Tile

end
-- ==== Proof.LibMatmulNT.lean ====
/-
  A matrix product against a TRANSPOSED right operand: the contraction as a sum over the shared axis.

  For dimension numbers that contract axis 1 of the left operand with axis 1 of the right operand, with no batch axis
  (rows × shared axis times columns × shared axis: every output entry (r, c) is the dot product of row r of the left
  operand with row c of the right one), the contraction index is one coordinate `k` below the shared extent; the left
  factor at the output index (r, c) is the left operand at (r, k) and the right factor the right operand at (c, k).  So
  the sum over the contraction index is `∑ k, l (r, k) * r' (c, k)`.
-/
import Idealize.ShloMosaic.Lib.ValueIdx
import Idealize.ShloMosaic.PureOps.Ideal.Laws

noncomputable section

open scoped BigOperators

namespace Cert.Layer.MatmulNT

open Idealize.ShloMosaic Idealize.ShloMosaic.ValueIdx

/-- The sum over the contraction index of a product against a transposed right operand is the sum over the shared
    axis' coordinate of the left operand at (row, k) times the right operand at (column, k). -/
theorem transposed_contr_sum {M K N : Nat} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k)
      = ∑ k : Fin K, l (ix2 (n0 := M) (n1 := K) (j 0) k) * r (ix2 (n0 := N) (n1 := K) (j 1) k) := by
  obtain ⟨lc, rc, ln, rn, lb, rb, wf⟩ := d
  dsimp only at hlc hrc hln hrn hlb hrb
  subst hlc hrc hln hrn hlb hrb
  generalize hD : (⟨[1], [1], [0], [0], [], [], wf⟩ : DotDims ⟨2, ![M, K]⟩ ⟨2, ![N, K]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [1] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := N) (n1 := K) (j 1) k := funext fun a => Fin.ext (by
    match a with
    | ⟨0, _⟩ =>
      subst hD
      show (DotDims.rhsIdx _ j _ ⟨0, _⟩).val = (j 1).val
      unfold DotDims.rhsIdx
      split
      · rename_i hb; exact absurd hb List.not_mem_nil
      · split
        · rfl
        · rename_i hn; exact absurd (List.mem_singleton.mpr rfl) hn
    | ⟨1, _⟩ => exact (D.rhsIdx_val_of_single hrc j _).trans hk)
  exact congrArg₂ (· * ·) (congrArg l el) (congrArg r er)

end Cert.Layer.MatmulNT

end
-- ==== Proof.TileUpdate.lean ====
/-
  The body's update of an output tile, read at one entry, on the extended reals.

  The update adds to the tile it read the product of the [2048, 1024] block of `x` with the TRANSPOSE of the
  [1024, 1024] block of the quantised weights, computed into a zero accumulator. At entry (p, q) that is
      acc (p, q) + ∑ kk < 1024, x (p, kk) * w (q, kk),
  and the zero tile is `0` at every entry.
-/
import proofs.«117658_j82325933130246_2_alg».proof.Proof.Gen.KernelIdeal.Skeleton
import proofs.«117658_j82325933130246_2_alg».proof.Proof.LibMatmulNT
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Tile

open Cert.KernelIdeal Cert.KernelIdeal.Gen

/-- The zero tile is `0` at every entry. -/
theorem zero_tile_apply (j : S2048x1024.Idx) : k0_pay1 (F := Ideal) j = 0 := by
  show Ideal.ofBits .f32 0x00000000#32 = 0
  exact Ideal.ofBits_zero_f32

/-- The update at entry (p, q): the tile read there plus the dot product of row p of the `x` block with row q of
    the weight block. -/
theorem update_apply (x : FVec Ideal S2048x1024 .bf16) (w : FVec Ideal S1024x1024 .bf16) (acc : FVec Ideal S2048x1024 .f32)
    (p : Fin 2048) (q : Fin 1024) :
    k0_pay2 (F := Ideal) x w acc (ix2 p q) = acc (ix2 p q) + ∑ kk : Fin 1024, x (ix2 p kk) * w (ix2 q kk) := by
  unfold k0_pay2
  show shapeCast S2048x1024 acc _ (ix2 p q)
      + FloatOps.matmul dot_S2048x1024_S1024x1024_S2048x1024_1_1_0_0_n_n none (shapeCast S2048x1024 x _) (shapeCast S1024x1024 w _)
          (constant S2048x1024 .f32 0x00000000#32) (ix2 p q) = _
  rw [shapeCast_self, shapeCast_self, shapeCast_self]
  refine congrArg (acc (ix2 p q) + ·) ((Ideal.matmul_constant_zero_apply _ none x w (ix2 p q)).trans ?_)
  exact Cert.Layer.MatmulNT.transposed_contr_sum dot_S2048x1024_S1024x1024_S2048x1024_1_1_0_0_n_n rfl rfl rfl rfl rfl rfl x w (ix2 p q)

end Cert.KernelIdeal.Tile

end
-- ==== Proof.BlockSum.lean ====
/-
  Sums cut into consecutive blocks, over any additive commutative monoid (so in particular over the
  extended reals, where no finiteness is needed: only associativity and commutativity of `+` are used).

  * `sum_blocks`: a sum over `Fin (B * K)` is the sum, over the `B` blocks, of each block's `K` terms;
    the term `k` of block `b` sits at position `k + K * b`.
  * `run`: the running total after `n` blocks, started at `0` and extended one block at a time
    (`run_zero`, `run_succ`), and `run_all`: after all `B` blocks it is the whole sum.
-/
import Mathlib.Algebra.BigOperators.Fin
import Mathlib.Logic.Equiv.Fin.Basic

namespace Cert.Ternary.BlockSum

open Finset

variable {M : Type*} [AddCommMonoid M]

/-- A sum over `Fin (B * K)` is the sum over the blocks of each block's terms. -/
theorem sum_blocks (B K : ℕ) (f : Fin (B * K) → M) :
    ∑ i, f i = ∑ b : Fin B, ∑ k : Fin K, f (finProdFinEquiv (b, k)) := by
  rw [← Fintype.sum_prod_type' (f := fun b k => f (finProdFinEquiv (b, k)))]
  exact (Equiv.sum_comp finProdFinEquiv f).symm

/-- The running total after the first `n` blocks, `g b` being block `b`'s own sum. -/
def run (g : ℕ → M) (n : ℕ) : M := ∑ b ∈ range n, g b

theorem run_zero (g : ℕ → M) : run g 0 = 0 := by simp [run]

theorem run_succ (g : ℕ → M) (n : ℕ) : run g (n + 1) = run g n + g n := by
  simp [run, sum_range_succ]

/-- After all `B` blocks the running total is the sum over the blocks. -/
theorem run_all (B : ℕ) (g : ℕ → M) : run g B = ∑ b : Fin B, g b.val := by
  simp [run, Fin.sum_univ_eq_sum_range]

end Cert.Ternary.BlockSum
-- ==== Proof.DotBlocks.lean ====
/-
  A dot product over 4096 terms as four consecutive blocks of 1024, on the extended reals.

  `X` is an [R, 4096] array and `Q` an [O, 4096] array. The entry (r, o) of `X · Qᵀ` is `∑ i < 4096, X (r, i) * Q (o, i)`.
  Cut the shared axis into four blocks of 1024: block `b` contributes `∑ kk < 1024, X (r, kk + 1024 b) * Q (o, kk + 1024 b)`,
  and the running total after all four blocks (started at 0) is the whole dot product — only associativity and
  commutativity of `+` are used, so nothing has to be finite.

  So that positions can be computed with plain natural-number arithmetic, an array is read through `atN`, which takes
  natural coordinates and returns 0 outside the array; inside the array it is the array's entry (`atN_eq`).
-/
import proofs.«117658_j82325933130246_2_alg».proof.Proof.BlockSum
import Idealize.ShloMosaic.Lib.ValueIdx

noncomputable section

open Idealize.ShloMosaic Idealize.ShloMosaic.ValueIdx

namespace Cert.Ternary

/-- A two-axis array read at natural coordinates, 0 outside it. -/
def atN {R C : Nat} (f : (⟨2, ![R, C]⟩ : Shape).Idx → EReal) (r i : ℕ) : EReal :=
  if h : r < R ∧ i < C then f (ix2 ⟨r, h.1⟩ ⟨i, h.2⟩) else 0

theorem atN_eq {R C : Nat} (f : (⟨2, ![R, C]⟩ : Shape).Idx → EReal) (r : Fin R) (i : Fin C) :
    atN f r.val i.val = f (ix2 r i) := by
  rw [atN, dif_pos ⟨r.isLt, i.isLt⟩]

/-- Block `b` of the dot product of row `r` of `X` with row `o` of `Q`. -/
def blockDot {R O : Nat} (X : (⟨2, ![R, 4096]⟩ : Shape).Idx → EReal) (Q : (⟨2, ![O, 4096]⟩ : Shape).Idx → EReal)
    (r o b : ℕ) : EReal :=
  ∑ kk : Fin 1024, atN X r (kk.val + 1024 * b) * atN Q o (kk.val + 1024 * b)

/-- The whole dot product of row `r` of `X` with row `o` of `Q`. -/
def rowDot {R O : Nat} (X : (⟨2, ![R, 4096]⟩ : Shape).Idx → EReal) (Q : (⟨2, ![O, 4096]⟩ : Shape).Idx → EReal)
    (r : Fin R) (o : Fin O) : EReal :=
  ∑ i : Fin 4096, X (ix2 r i) * Q (ix2 o i)

/-- The running total after all four blocks is the whole dot product. -/
theorem run_four_blocks {R O : Nat} (X : (⟨2, ![R, 4096]⟩ : Shape).Idx → EReal) (Q : (⟨2, ![O, 4096]⟩ : Shape).Idx → EReal)
    (r : Fin R) (o : Fin O) :
    BlockSum.run (blockDot X Q r.val o.val) 4 = rowDot X Q r o := by
  rw [BlockSum.run_all]
  unfold rowDot blockDot
  have e : ∀ i : Fin 4096, X (ix2 r i) * Q (ix2 o i) = atN X r.val i.val * atN Q o.val i.val := fun i => by
    rw [atN_eq, atN_eq]
  rw [Finset.sum_congr rfl fun i _ => e i]
  show _ = ∑ i : Fin (4 * 1024), atN X r.val i.val * atN Q o.val i.val
  rw [BlockSum.sum_blocks 4 1024 (fun i => atN X r.val i.val * atN Q o.val i.val)]
  refine Finset.sum_congr rfl fun b _ => Finset.sum_congr rfl fun kk _ => ?_
  rw [finProdFinEquiv_apply_val]

end Cert.Ternary

end
-- ==== Proof.TileRun.lean ====
/-
  The kernel's output array after the region, on the extended reals: the whole product `X · Qᵀ`.

  The grid is 4 × 4 × 4, point `t` having coordinates (t / 16, t / 4 % 4, t % 4): a row tile of 2048 rows, a column
  tile of 1024 columns, and a block of 1024 along the shared axis. At point `t` the body sees rows
  `2048 (t / 16) + p` of `X` and rows `1024 (t / 4 % 4) + q` of `Q`, both at shared positions `kk + 1024 (t % 4)`,
  and updates the [2048, 1024] output tile. The four points of one tile are consecutive; the first resets the tile,
  each adds its block's dot products, and the tile is written back to the array after the fourth.

  * `tile_apply`: after point `t` the tile's entry (p, q) is the running total of the first `t % 4 + 1` blocks of the
    dot product of those two rows (by induction on the point: a reset point leaves `0 + block`, a later point
    adds its block to what the point before left);
  * `flushed_eq`: so what a point with `t % 4 = 3` writes back is its block of the whole product;
  * `cover`: every entry (r, o) of the array lies in the block written back at point
    `16 (r / 2048) + 4 (o / 1024) + 3`;
  * `final`: hence the array ends as the whole product.
-/
import proofs.«117658_j82325933130246_2_alg».proof.Proof.TileCases
import proofs.«117658_j82325933130246_2_alg».proof.Proof.TileUpdate
import proofs.«117658_j82325933130246_2_alg».proof.Proof.DotBlocks
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.Ternary

variable (m : (ℓ : Loc nD τ sig) → Buf (Elt Ideal) ℓ)

/-- `x` as the region finds it, an [8192, 4096] array. -/
abbrev X (c : Dev nD) : S8192x4096.Idx → EReal := V m c main_v8
/-- The quantised weights as the region finds them, a [4096, 4096] array. -/
abbrev Q (c : Dev nD) : S4096x4096.Idx → EReal := V m c main_v6

/-- The whole product: entry (r, o) is the dot product of row r of `X` with row o of `Q`. -/
def product (c : Dev nD) : S8192x4096.Idx → EReal := fun j => rowDot (X m c) (Q m c) (j 0) (j 1)

/-- The block indices of the three windows at point `t`, decided over the 64 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The `x` block at point `t`, entry (p, kk): row `2048 (t / 16) + p`, shared position `kk + 1024 (t % 4)`. -/
theorem xblk_apply (c : Dev nD) (t : Fin cfg0.N) (p : Fin 2048) (kk : Fin 1024) :
    (iblk m c 0 t : FVec Ideal S2048x1024 .bf16) (ix2 p kk)
      = atN (X m c) (2048 * (t.val / 16) + p.val) (kk.val + 1024 * (t.val % 4)) := by
  obtain ⟨e0, e1, -⟩ := idx_facts t
  have hN : t.val < 64 := lt_of_lt_of_eq t.isLt N_0
  have hp : p.val < 2048 := p.isLt
  have hk : kk.val < 1024 := kk.isLt
  have hr : 2048 * (t.val / 16) + p.val < 8192 := by omega
  have hi : kk.val + 1024 * (t.val % 4) < 4096 := by omega
  rw [atN, dif_pos ⟨hr, hi⟩]
  unfold iblk
  rw [View.read_apply]
  show V m c main_v8 _ = V m c main_v8 _
  refine congrArg _ (funext fun a => Fin.ext ?_)
  match a with
  | ⟨0, _⟩ => show win0_0.index t (0 : Fin 2) * 2048 + 1 * p.val = 2048 * (t.val / 16) + p.val; omega
  | ⟨1, _⟩ => show win0_0.index t (1 : Fin 2) * 1024 + 1 * kk.val = kk.val + 1024 * (t.val % 4); omega

/-- The weight block at point `t`, entry (q, kk): row `1024 (t / 4 % 4) + q`, shared position `kk + 1024 (t % 4)`. -/
theorem wblk_apply (c : Dev nD) (t : Fin cfg0.N) (q : Fin 1024) (kk : Fin 1024) :
    (iblk m c 1 t : FVec Ideal S1024x1024 .bf16) (ix2 q kk)
      = atN (Q m c) (1024 * (t.val / 4 % 4) + q.val) (kk.val + 1024 * (t.val % 4)) := by
  obtain ⟨-, -, e0, e1, -⟩ := idx_facts t
  have hN : t.val < 64 := lt_of_lt_of_eq t.isLt N_0
  have hq : q.val < 1024 := q.isLt
  have hk : kk.val < 1024 := kk.isLt
  have hr : 1024 * (t.val / 4 % 4) + q.val < 4096 := by omega
  have hi : kk.val + 1024 * (t.val % 4) < 4096 := by omega
  rw [atN, dif_pos ⟨hr, hi⟩]
  unfold iblk
  rw [View.read_apply]
  show V m c main_v6 _ = V m c main_v6 _
  refine congrArg _ (funext fun a => Fin.ext ?_)
  match a with
  | ⟨0, _⟩ => show win0_1.index t (0 : Fin 2) * 1024 + 1 * q.val = 1024 * (t.val / 4 % 4) + q.val; omega
  | ⟨1, _⟩ => show win0_1.index t (1 : Fin 2) * 1024 + 1 * kk.val = kk.val + 1024 * (t.val % 4); omega

/-- The two input blocks at point `t`, as arrays of extended reals. -/
abbrev xblk (c : Dev nD) (t : Fin cfg0.N) : FVec Ideal S2048x1024 .bf16 := iblk m c 0 t
abbrev wblk (c : Dev nD) (t : Fin cfg0.N) : FVec Ideal S1024x1024 .bf16 := iblk m c 1 t

/-- The dot product of row p of the `x` block with row q of the weight block at point `t` is block `t % 4` of the
    dot product of the two rows of the arrays. -/
theorem blocks_dot (c : Dev nD) (t : Fin cfg0.N) (p : Fin 2048) (q : Fin 1024) :
    ∑ kk : Fin 1024, xblk m c t (ix2 p kk) * wblk m c t (ix2 q kk)
      = blockDot (X m c) (Q m c) (2048 * (t.val / 16) + p.val) (1024 * (t.val / 4 % 4) + q.val) (t.val % 4) := by
  unfold blockDot
  exact Finset.sum_congr rfl fun kk _ => congrArg₂ (· * ·) (xblk_apply m c t p kk) (wblk_apply m c t q kk)

/-- The body's update at point `t`, at entry (p, q): the tile it read plus block `t % 4` of the two rows' dot product. -/
theorem step_apply (c : Dev nD) (t : Fin cfg0.N) (acc : FVec Ideal S2048x1024 .f32) (p : Fin 2048) (q : Fin 1024) :
    k0_pay2 (F := Ideal) (xblk m c t) (wblk m c t) acc (ix2 p q)
      = acc (ix2 p q) + blockDot (X m c) (Q m c) (2048 * (t.val / 16) + p.val) (1024 * (t.val / 4 % 4) + q.val) (t.val % 4) :=
  (update_apply (xblk m c t) (wblk m c t) acc p q).trans (congrArg (acc (ix2 p q) + ·) (blocks_dot m c t p q))

/-- A point that starts a tile leaves `0 + ` its block at every entry. -/
theorem start_apply (c : Dev nD) (t : Fin cfg0.N) (h0 : t.val % 4 = 0) (p : Fin 2048) (q : Fin 1024) :
    outsAt0 m c t.val t.isLt (ix2 p q)
      = 0 + blockDot (X m c) (Q m c) (2048 * (t.val / 16) + p.val) (1024 * (t.val / 4 % 4) + q.val) (t.val % 4) := by
  refine (congrFun ((outsAt0_A m c t h0).trans
    (out_start c (grid0.coords t) (ms0_0 t) (hs0_0 t) (ms0_1 t) (hs0_1 t) (ms0_2 t) (hs0_2 t) ((hcond0_0 t).mpr h0)
      (iblk m c 0 t) (iblk m c 1 t))) (ix2 p q)).trans ?_
  refine (step_apply m c t k0_pay1 p q).trans ?_
  rw [zero_tile_apply]

/-- A later point of a tile adds its block to what the point before left. -/
theorem continue_apply (c : Dev nD) (t : Fin cfg0.N) (h0 : ¬t.val % 4 = 0) (p : Fin 2048) (q : Fin 1024) :
    outsAt0 m c t.val t.isLt (ix2 p q)
      = outsAt0 m c (t.val - 1) (Nat.lt_of_le_of_lt (Nat.sub_le _ _) t.isLt) (ix2 p q)
        + blockDot (X m c) (Q m c) (2048 * (t.val / 16) + p.val) (1024 * (t.val / 4 % 4) + q.val) (t.val % 4) := by
  refine (congrFun ((outsAt0_B m c t h0).trans
    (out_continue c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt)))) (ix2 p q)).trans ?_
  exact step_apply m c t (outsAt0 m c (t.val - 1) (Nat.lt_of_le_of_lt (Nat.sub_le _ _) t.isLt)) p q

/-- After point `n` the tile's entry (p, q) is the running total of the first `n % 4 + 1` blocks. -/
theorem tile_apply (c : Dev nD) : ∀ (n : ℕ) (h : n < cfg0.N) (p : Fin 2048) (q : Fin 1024),
    outsAt0 m c n h (ix2 p q)
      = BlockSum.run (blockDot (X m c) (Q m c) (2048 * (n / 16) + p.val) (1024 * (n / 4 % 4) + q.val)) (n % 4 + 1) := by
  intro n
  induction n with
  | zero =>
    intro h p q
    rw [start_apply m c ⟨0, h⟩ rfl p q, BlockSum.run_succ, BlockSum.run_zero]
  | succ n ih =>
    intro h p q
    have hN : n + 1 < 64 := lt_of_lt_of_eq h N_0
    by_cases h0 : (n + 1) % 4 = 0
    · rw [start_apply m c ⟨n + 1, h⟩ h0 p q]
      show _ = BlockSum.run _ ((n + 1) % 4 + 1)
      rw [h0, BlockSum.run_succ, BlockSum.run_zero]
    · rw [continue_apply m c ⟨n + 1, h⟩ h0 p q]
      show outsAt0 m c n _ (ix2 p q) + blockDot _ _ (2048 * ((n + 1) / 16) + p.val) (1024 * ((n + 1) / 4 % 4) + q.val) ((n + 1) % 4)
        = BlockSum.run _ ((n + 1) % 4 + 1)
      have e1 : (n + 1) / 16 = n / 16 := by omega
      have e2 : (n + 1) / 4 % 4 = n / 4 % 4 := by omega
      have e3 : (n + 1) % 4 = n % 4 + 1 := by omega
      rw [ih (Nat.lt_of_succ_lt h) p q, e1, e2, e3, ← BlockSum.run_succ]

/-- What a point with `t % 4 = 3` writes back is its block of the whole product: its tile holds the running total of
    all four blocks, which is the whole dot product of the two rows, and the block's entry (p, q) sits in the array at
    row `2048 (t / 16) + p`, column `1024 (t / 4 % 4) + q`. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hN : t.val < 64 := lt_of_lt_of_eq t.isLt N_0
  obtain ⟨-, -, -, -, e0, e1⟩ := idx_facts t
  show (cfg0.win 2).cut (grid0.coords t) ((dats m 0 c).after 2 t) = _
  rw [after0_2]
  funext y
  obtain ⟨p, q, rfl⟩ : ∃ (p : Fin 2048) (q : Fin 1024), y = ix2 p q := ⟨y 0, y 1, eq_ix2 y⟩
  show outsAt0 m c t.val t.isLt (ix2 p q) = product m c (((cfg0.win 2).blk t).view.emb (ix2 p q))
  have hp : p.val < 2048 := p.isLt
  have hq : q.val < 1024 := q.isLt
  have hr : 2048 * (t.val / 16) + p.val < 8192 := by omega
  have ho : 1024 * (t.val / 4 % 4) + q.val < 4096 := by omega
  rw [tile_apply m c t.val t.isLt p q, show t.val % 4 + 1 = 4 by omega]
  refine (run_four_blocks (X m c) (Q m c) ⟨_, hr⟩ ⟨_, ho⟩).trans ?_
  unfold product
  refine congrArg₂ (rowDot (X m c) (Q m c)) (Fin.ext ?_) (Fin.ext ?_)
  · show 2048 * (t.val / 16) + p.val = win0_2.index t (0 : Fin 2) * 2048 + 1 * p.val
    omega
  · show 1024 * (t.val / 4 % 4) + q.val = win0_2.index t (1 : Fin 2) * 1024 + 1 * q.val
    omega

/-- Every entry (r, o) of the array lies in the block written back at point `16 (r / 2048) + 4 (o / 1024) + 3`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : 16 * ((i 0).val / 2048) + 4 * ((i 1).val / 1024) + 3 < cfg0.N := by
    rw [show cfg0.N = 64 from N_0]; omega
  obtain ⟨-, -, -, -, e0, e1⟩ := idx_facts ⟨_, hlt⟩
  dsimp only at e0 e1
  refine ⟨⟨_, hlt⟩, (flush0_2 _).mpr (by show (16 * ((i 0).val / 2048) + 4 * ((i 1).val / 1024) + 3) % 4 = 3; omega), ?_⟩
  show i ∈ ((View.whole main_v9).slice
    (win0_2.rect (⟨16 * ((i 0).val / 2048) + 4 * ((i 1).val / 1024) + 3, hlt⟩ : Fin cfg0.N))).set
  rw [View.set_slice_whole, Rect.mem_set_unit]
  intro a
  match a with
  | ⟨0, _⟩ =>
    show win0_2.index ⟨_, hlt⟩ (0 : Fin 2) * 2048 ≤ (i 0).val ∧ (i 0).val < win0_2.index ⟨_, hlt⟩ (0 : Fin 2) * 2048 + 2048
    rw [e0]; omega
  | ⟨1, _⟩ =>
    show win0_2.index ⟨_, hlt⟩ (1 : Fin 2) * 1024 ≤ (i 1).val ∧ (i 1).val < win0_2.index ⟨_, hlt⟩ (1 : Fin 2) * 1024 + 1024
    rw [e1]; omega

/-- The output array after the region is the whole product. -/
theorem final (c : Dev nD) : (dats m 0 c).arrAt 2 cfg0.N = product m c :=
  (dats m 0 c).arrAt_eq_of_cover 2 (product m c) (flushed_eq m c) cover

end Cert.KernelIdeal.Tile

end
-- ==== Proof.KernelValue.lean ====
/-
  The kernel's result as a function of its two arguments, on the extended reals.

  Before the region the host quantises the weights to {-1, 0, 1} (`quant`: 1 where w > 1/2, else -1 where w < -1/2,
  else 0), changes both operands' float format (the identity on the extended reals) and merges the two leading axes
  of `x` into 8192 rows; after the region it splits the 8192 rows of the product back into [4, 2048]. So the result is
  the reshape of the product `X · Qᵀ` with `X` the merged `x` and `Q` the quantised weights.
-/
import proofs.«117658_j82325933130246_2_alg».proof.Proof.TileRun
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.Ternary

/-- The ternary quantisation of a weight array, as the host computes it. -/
def quant {F : FTy → Type} [FloatOps F] (w : FVec F S4096x4096 .f32) : FVec F S4096x4096 .f32 :=
  select (cmpf .ogt w (broadcastInDim S4096x4096 ![] bcast_S_S4096x4096 (constant (F := F) S_ .f32 0x3F000000#32)))
    (broadcastInDim S4096x4096 ![] bcast_S_S4096x4096 (constant (F := F) S_ .f32 0x3F800000#32))
    (select (cmpf .olt w (broadcastInDim S4096x4096 ![] bcast_S_S4096x4096 (constant (F := F) S_ .f32 0xBF000000#32)))
      (broadcastInDim S4096x4096 ![] bcast_S_S4096x4096 (constant (F := F) S_ .f32 0xBF800000#32))
      (broadcastInDim S4096x4096 ![] bcast_S_S4096x4096 (constant (F := F) S_ .f32 0x00000000#32)))

variable (m : (ℓ : Loc nD τ sig) → Buf (Elt Ideal) ℓ) (ρ : Dev nD → PrngReg)

/-- The region finds `x` with its two leading axes merged (and its format changed). -/
theorem X_eq (c : Dev nD) :
    X m c = shapeCast S8192x4096 (truncf (F := Ideal) .bf16 (m ((c : Thread nD τ).loc main_arg0)) bitsLt_bf16_f32)
      shapeCasts_S4x2048x4096_S8192x4096 := by
  dsimp only [X, Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The region finds the weights quantised (and their format changed). -/
theorem Q_eq (c : Dev nD) :
    Q m c = truncf (F := Ideal) .bf16 (quant (F := Ideal) (m ((c : Thread nD τ).loc main_arg1))) bitsLt_bf16_f32 := by
  dsimp only [Q, Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The result buffer after the host's last line: the product with its rows split back into [4, 2048]. -/
theorem tail_eq (c : Dev nD) :
    Pipeline.afterTail₀ cfgs (dats m) 0 (V0 m) [hostOps1] c main_v10
      = shapeCast S4x2048x4096 (product m c) shapeCasts_S8192x4096_S4x2048x4096 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = product m c :=
    (Pipeline.withArrays_arr spec0 launch0.win.arr_inj c _ _ 2).trans (final m c)
  rw [e]
  rfl

/-- The kernel's run, read: every weakly fair execution terminates with the result buffer at the product's rows
    split back into [4, 2048], and the two arguments unchanged. -/
theorem run : θ_run defs (onTc (τ := τ) (main (F := Ideal))) ⟨m, fun _ => 0, ρ⟩ fun r => ∀ c : Dev nD,
      r.2.mem ((c.tc : Thread nD τ).loc main_v10) = shapeCast S4x2048x4096 (product m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tile

end
-- ==== Proof.LibRowMerge.lean ====
/-
  Reshapes that merge the two leading axes of a rank-3 array into rows, and split them back, read at an index.

  An [A, B, C] array and an [R, C] array with R = A · B have the same row-major order exactly when row r of the
  second is (a, b) of the first with r = a · B + b. So
  * `merge_apply`: the [A, B, C] array reshaped to [R, C], read at (r, i), is the array at (a, b, i);
  * `split_apply`: the [R, C] array reshaped to [A, B, C], read at (a, b, i), is the array at (r, i);
  both for any extents and any element type, the caller supplying the coordinates and the relation `r = a · B + b`.
-/
import Idealize.ShloMosaic.Lib.Pipeline.Value
import Idealize.ShloMosaic.Lib.ValueIdx

namespace Cert.Layer.RowMerge

open Idealize.ShloMosaic Idealize.ShloMosaic.ValueIdx

/-- An [A, B, C] array reshaped to [R, C], read at row `r = a · B + b` and column `i`, is the array at (a, b, i). -/
theorem merge_apply {α : Type} {A B C R : Nat} (x : (⟨3, ![A, B, C]⟩ : Shape).Idx → α)
    (h : (⟨3, ![A, B, C]⟩ : Shape).ShapeCasts ⟨2, ![R, C]⟩) (a : Fin A) (b : Fin B) (i : Fin C) (r : Fin R)
    (hr : r.val = a.val * B + b.val) :
    shapeCast ⟨2, ![R, C]⟩ x h (ix2 r i) = x (ix3 a b i) :=
  shapeCast_apply x h (ix2 r i) (ix3 a b i) (by
    rw [Shape.rowMajor_val_three, Shape.rowMajor_val_two]
    show (a.val * B + b.val) * C + i.val = r.val * C + i.val
    rw [hr])

/-- An [R, C] array reshaped to [A, B, C], read at (a, b, i), is the array at row `r = a · B + b` and column `i`. -/
theorem split_apply {α : Type} {A B C R : Nat} (y : (⟨2, ![R, C]⟩ : Shape).Idx → α)
    (h : (⟨2, ![R, C]⟩ : Shape).ShapeCasts ⟨3, ![A, B, C]⟩) (a : Fin A) (b : Fin B) (i : Fin C) (r : Fin R)
    (hr : r.val = a.val * B + b.val) :
    shapeCast ⟨3, ![A, B, C]⟩ y h (ix3 a b i) = y (ix2 r i) :=
  shapeCast_apply y h (ix3 a b i) (ix2 r i) (by
    rw [Shape.rowMajor_val_three, Shape.rowMajor_val_two]
    show r.val * C + i.val = (a.val * B + b.val) * C + i.val
    rw [hr])

end Cert.Layer.RowMerge
-- ==== Proof.Bridge.lean ====
/-
  The kernel's result and the reference's are one function of the two arguments, on the extended reals.

  At (b, s, o) the kernel's result is the product's entry at row `b · 2048 + s`, column `o`:
      ∑ i < 4096, X (b · 2048 + s, i) * Q (o, i),
  where `X (b · 2048 + s, i) = x (b, s, i)` (the merge of the leading axes) and `Q (o, i)` is the quantised weight at
  (o, i). The reference's contraction of `x`'s last axis with the quantised weights' last axis, read at (b, s, o), is
      ∑ i < 4096, x (b, s, i) * quantised (o, i):
  the same sum, term by term. Both programs quantise with the same comparisons against the same constants.
-/
import proofs.«117658_j82325933130246_2_alg».proof.Proof.KernelValue
import proofs.«117658_j82325933130246_2_alg».proof.Proof.LibRowMerge
import proofs.«117658_j82325933130246_2_alg».proof.Proof.Gen.ReferenceIdeal.Read

noncomputable section

open Idealize.ShloMosaic Idealize.ShloMosaic.TcCoe Idealize.SL.Sem Idealize.ShloMosaic.ValueIdx

namespace Cert.KernelIdeal.Tile

open Cert.KernelIdeal Cert.KernelIdeal.Gen Cert.Ternary

variable (m : (ℓ : Loc nD τ sig) → Buf (Elt Ideal) ℓ)

/-- The weights as the region finds them are the reference's quantised weights. -/
theorem Q_eq_ref (c : Dev nD) :
    Q m c = Cert.ReferenceIdeal.Read.val_main_v6 (F := Ideal) (m ((c : Thread nD τ).loc main_arg1)) := by
  rw [Q_eq]
  rfl

/-- The kernel's result is the reference's contraction of the same two arguments. -/
theorem result_eq (c : Dev nD) :
    shapeCast S4x2048x4096 (product m c) shapeCasts_S8192x4096_S4x2048x4096
      = Cert.ReferenceIdeal.Read.val_main_v7 (F := Ideal) (m ((c : Thread nD τ).loc main_arg0)) (m ((c : Thread nD τ).loc main_arg1)) := by
  funext j
  obtain ⟨b, s, o, rfl⟩ : ∃ (b : Fin 4) (s : Fin 2048) (o : Fin 4096), j = ix3 b s o := ⟨j 0, j 1, j 2, eq_ix3 j⟩
  have hb : b.val < 4 := b.isLt
  have hs : s.val < 2048 := s.isLt
  have hr : b.val * 2048 + s.val < 8192 := by omega
  rw [Cert.ReferenceIdeal.Read.val_main_v7_apply]
  refine (Cert.Layer.RowMerge.split_apply (product m c) shapeCasts_S8192x4096_S4x2048x4096 b s o ⟨_, hr⟩ rfl).trans ?_
  show ∑ i : Fin 4096, X m c (ix2 ⟨b.val * 2048 + s.val, hr⟩ i) * Q m c (ix2 o i) = _
  refine Finset.sum_congr rfl fun i _ => ?_
  have eX : X m c (ix2 ⟨b.val * 2048 + s.val, hr⟩ i) = m ((c : Thread nD τ).loc main_arg0) (ix3 b s i) := by
    rw [X_eq]
    exact Cert.Layer.RowMerge.merge_apply _ shapeCasts_S4x2048x4096_S8192x4096 b s i ⟨_, hr⟩ rfl
  have el : Cert.ReferenceIdeal.Read.lidx_main_v7 (ix3 b s o) i = ix3 b s i :=
    funext fun a => match a with | ⟨0, _⟩ => rfl | ⟨1, _⟩ => rfl | ⟨2, _⟩ => rfl
  have er : Cert.ReferenceIdeal.Read.ridx_main_v7 (ix3 b s o) i = ix2 o i :=
    funext fun a => match a with | ⟨0, _⟩ => rfl | ⟨1, _⟩ => rfl
  rw [eX, Q_eq_ref, el, er]

end Cert.KernelIdeal.Tile

end
-- ==== Proof.lean ====
/-
  A ternary-weight linear layer: `out = x · quant(weight)ᵀ` with `quant` sending a weight to 1 above 1/2, to -1 below
  -1/2 and to 0 otherwise, `x` of shape [4, 2048, 4096] and `weight` of shape [4096, 4096].

  The kernel merges the two leading axes of `x` into 8192 rows and computes the [8192, 4096] product tile by tile:
  a 4 × 4 grid of [2048, 1024] output tiles, each accumulated over four blocks of 1024 along the shared axis (reset
  at the first block, written back after the fourth), and splits the rows back. The reference contracts `x`'s last
  axis with the quantised weights' last axis in one step. On the extended reals the two agree entry by entry: a sum
  of 4096 products is the sum of its four consecutive blocks of 1024, started from zero — associativity and
  commutativity of addition only, so the inputs' finiteness is not used. The changes of float format on the way into
  the kernel are the identity on the extended reals, and the idealized kernel is the printed kernel's own text read
  there, so the preservation conjunct is `True`.

  Modules: BlockSum (sums cut into blocks), DotBlocks (a 4096-term dot product as four blocks), LibMatmulNT (a product
  against a transposed operand as a sum over the shared axis), LibRowMerge (the two reshapes at an index), TileCases
  and TileUpdate (what one grid point leaves in a tile, and that update at an entry), TileRun (the tile after each
  point, by induction; the block written back; the cover; the final array), KernelValue (the arrays the region finds,
  the reshape after it, the kernel's run), Bridge (the result is the reference's contraction).
-/
import proofs.«117658_j82325933130246_2_alg».proof.Defs
import proofs.«117658_j82325933130246_2_alg».proof.Proof.Gen.Kernel
import proofs.«117658_j82325933130246_2_alg».proof.Proof.Gen.Kernel.Frame
import proofs.«117658_j82325933130246_2_alg».proof.Proof.Gen.KernelIdeal
import proofs.«117658_j82325933130246_2_alg».proof.Proof.Gen.KernelIdeal.Frame
import proofs.«117658_j82325933130246_2_alg».proof.Proof.Gen.ReferenceIdeal
import proofs.«117658_j82325933130246_2_alg».proof.Proof.Gen.Pre_finite_inputs
import proofs.«117658_j82325933130246_2_alg».proof.Proof.Gen.ReferenceIdeal.Read
import proofs.«117658_j82325933130246_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the printed kernel's own text: nothing to preserve beyond `True`. -/
theorem preserves : Cert.preserves_Kernel_KernelIdeal := trivial

/-- On the extended reals the kernel's result buffer ends at the product's rows split back into [4, 2048], the
    reference's at its contraction of arguments that agree with the kernel's: one function of the arguments. -/
theorem algebraic : Cert.algebraic_KernelIdeal_ReferenceIdeal := by
  intro m ρ m' ρ' _ hagree
  refine ⟨fun c => shapeCast Cert.KernelIdeal.S4x2048x4096 (Cert.KernelIdeal.Tile.product m c)
    Cert.KernelIdeal.Facts₀.shapeCasts_S8192x4096_S4x2048x4096, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v7_eq]
  exact (Cert.KernelIdeal.Tile.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
